-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6x8x32768 : Shape := ⟨3, ![6, 8, 32768]⟩
abbrev S6x8 : Shape := ⟨2, ![6, 8]⟩
abbrev S6x8x6x8 : Shape := ⟨4, ![6, 8, 6, 8]⟩
abbrev S_ : Shape := ⟨0, ![]⟩

class Facts : Prop where
  bcast_S_S6x8x32768 : S_.BroadcastsInDim S6x8x32768 (![] : Fin 0 → Fin S6x8x32768.rank)
  reducesTo_S6x8x32768_S_d0_1_2 : S6x8x32768.ReducesTo [0, 1, 2] S_
  h_S_ : 0 < S_.numel
  bcast_S_S6x8 : S_.BroadcastsInDim S6x8 (![] : Fin 0 → Fin S6x8.rank)
  reducesTo_S6x8_S_d0_1 : S6x8.ReducesTo [0, 1] S_
  bcast_S_S6x8x6x8 : S_.BroadcastsInDim S6x8x6x8 (![] : Fin 0 → Fin S6x8x6x8.rank)
  reducesTo_S6x8x6x8_S_d0_1_2_3 : S6x8x6x8.ReducesTo [0, 1, 2, 3] S_

variable [Facts]

def fn_part1 {F : FTy → Type} [FloatOps F] (main_v13 : IVec S_ 1) (main_v16 : IVec S6x8x6x8 1) : IVec S_ 1 :=
  let main_c_5 : IVec S_ 1 := constantI S_ 1 1#1
  let main_v17 : IVec S_ 1 := (fun x v => Host.reduce IntOp.andi x v reducesTo_S6x8x6x8_S_d0_1_2_3 h_S_) main_v16 main_c_5
  let main_v18 : IVec S_ 1 := andi main_v13 main_v17
  main_v18

def fn {F : FTy → Type} [FloatOps F] (main_arg0 : FVec F S6x8x32768 .f32) (main_arg1 : FVec F S6x8 .f32) (main_arg2 : FVec F S6x8x6x8 .f32) (main_arg3 : FVec F S6x8x6x8 .f32) : IVec S_ 1 :=
  let main_v0 : FVec F S6x8x32768 .f32 := Host.absf main_arg0
  let main_cst : FVec F S_ .f32 := constant S_ .f32 0x7F800000#32
  let main_v1 : FVec F S6x8x32768 .f32 := broadcastInDim S6x8x32768 ![] bcast_S_S6x8x32768 main_cst
  let main_v2 : IVec S6x8x32768 1 := cmpf .olt main_v0 main_v1
  let main_c : IVec S_ 1 := constantI S_ 1 1#1
  let main_v3 : IVec S_ 1 := (fun x v => Host.reduce IntOp.andi x v reducesTo_S6x8x32768_S_d0_1_2 h_S_) main_v2 main_c
  let main_v4 : FVec F S6x8 .f32 := Host.absf main_arg1
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S6x8x6x8 .f32 := Host.absf main_arg2
  let main_cst_2 : FVec F S_ .f32 := constant S_ .f32 0x7F800000#32
  let main_v10 : FVec F S6x8x6x8 .f32 := broadcastInDim S6x8x6x8 ![] bcast_S_S6x8x6x8 main_cst_2
  let main_v11 : IVec S6x8x6x8 1 := cmpf .olt main_v9 main_v10
  let main_c_3 : IVec S_ 1 := constantI S_ 1 1#1
  let main_v12 : IVec S_ 1 := (fun x v => Host.reduce IntOp.andi x v reducesTo_S6x8x6x8_S_d0_1_2_3 h_S_) main_v11 main_c_3
  let main_v13 : IVec S_ 1 := andi main_v8 main_v12
  let main_v14 : FVec F S6x8x6x8 .f32 := Host.absf main_arg3
  let main_cst_4 : FVec F S_ .f32 := constant S_ .f32 0x7F800000#32
  let main_v15 : FVec F S6x8x6x8 .f32 := broadcastInDim S6x8x6x8 ![] bcast_S_S6x8x6x8 main_cst_4
  let main_v16 : IVec S6x8x6x8 1 := cmpf .olt main_v14 main_v15
  fn_part1 (F := F) main_v13 main_v16
-- ==== Kernel.lean ====
abbrev S6x8x32768 : Shape := ⟨3, ![6, 8, 32768]⟩
abbrev S6x8 : Shape := ⟨2, ![6, 8]⟩
abbrev S6x8x6x8 : Shape := ⟨4, ![6, 8, 6, 8]⟩
abbrev S6 : Shape := ⟨1, ![6]⟩
abbrev S6x1x1x1 : Shape := ⟨4, ![6, 1, 1, 1]⟩
abbrev S1x1x6x1 : Shape := ⟨4, ![1, 1, 6, 1]⟩
abbrev S6x1x6x1 : Shape := ⟨4, ![6, 1, 6, 1]⟩
abbrev S48x48 : Shape := ⟨2, ![48, 48]⟩
abbrev S48x32768 : Shape := ⟨2, ![48, 32768]⟩
abbrev S48x1 : Shape := ⟨2, ![48, 1]⟩
abbrev S1x32768 : Shape := ⟨2, ![1, 32768]⟩
abbrev S48x2048 : Shape := ⟨2, ![48, 2048]⟩
abbrev S1x2048 : Shape := ⟨2, ![1, 2048]⟩
abbrev S1x1 : Shape := ⟨2, ![1, 1]⟩
abbrev S2048 : Shape := ⟨1, ![2048]⟩
abbrev S32768 : Shape := ⟨1, ![32768]⟩

abbrev nBuf : Space → Nat
  | .hbm => 22
  | .vmem => 7
  | .smem => 0
  | _ => 0

abbrev bufTy : (tb : Table) → Fin (tcTables nBuf tb) → BufTy
  | .hbm, ⟨0, _⟩ => ⟨S6x8x32768, .f32⟩
  | .hbm, ⟨1, _⟩ => ⟨S6x8, .f32⟩
  | .hbm, ⟨2, _⟩ => ⟨S6x8x6x8, .f32⟩
  | .hbm, ⟨3, _⟩ => ⟨S6x8x6x8, .f32⟩
  | .hbm, ⟨4, _⟩ => ⟨S6, .i32⟩
  | .hbm, ⟨5, _⟩ => ⟨S6x1x1x1, .i32⟩
  | .hbm, ⟨6, _⟩ => ⟨S6, .i32⟩
  | .hbm, ⟨7, _⟩ => ⟨S1x1x6x1, .i32⟩
  | .hbm, ⟨8, _⟩ => ⟨S6x1x6x1, .i32⟩
  | .hbm, ⟨9, _⟩ => ⟨S6x1x6x1, .i32⟩
  | .hbm, ⟨10, _⟩ => ⟨S6x1x6x1, .i1⟩
  | .hbm, ⟨11, _⟩ => ⟨S6x8x6x8, .i1⟩
  | .hbm, ⟨12, _⟩ => ⟨S6x8x6x8, .f32⟩
  | .hbm, ⟨13, _⟩ => ⟨S6x8x6x8, .f32⟩
  | .hbm, ⟨14, _⟩ => ⟨S48x48, .f32⟩
  | .hbm, ⟨15, _⟩ => ⟨S48x48, .f32⟩
  | .hbm, ⟨16, _⟩ => ⟨S48x32768, .f32⟩
  | .hbm, ⟨17, _⟩ => ⟨S48x1, .f32⟩
  | .hbm, ⟨18, _⟩ => ⟨S48x48, .f32⟩
  | .hbm, ⟨19, _⟩ => ⟨S48x48, .f32⟩
  | .hbm, ⟨20, _⟩ => ⟨S1x32768, .f32⟩
  | .hbm, ⟨21, _⟩ => ⟨S32768, .f32⟩
  | .local _ .vmem, ⟨0, _⟩ => ⟨S48x2048, .f32⟩
  | .local _ .vmem, ⟨1, _⟩ => ⟨S48x2048, .f32⟩
  | .local _ .vmem, ⟨2, _⟩ => ⟨S48x1, .f32⟩
  | .local _ .vmem, ⟨3, _⟩ => ⟨S48x48, .f32⟩
  | .local _ .vmem, ⟨4, _⟩ => ⟨S48x48, .f32⟩
  | .local _ .vmem, ⟨5, _⟩ => ⟨S1x2048, .f32⟩
  | .local _ .vmem, ⟨6, _⟩ => ⟨S1x2048, .f32⟩
  | _, _ => ⟨S6x8x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S48x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S6_S6x1x1x1_0 : S6.BroadcastsInDim S6x1x1x1 (![0] : Fin 1 → Fin S6x1x1x1.rank)
  bcast_S6_S1x1x6x1_2 : S6.BroadcastsInDim S1x1x6x1 (![2] : Fin 1 → Fin S1x1x6x1.rank)
  bcast_S1x1x6x1_S6x1x6x1_0_1_2_3 : S1x1x6x1.BroadcastsInDim S6x1x6x1 (![0, 1, 2, 3] : Fin 4 → Fin S6x1x6x1.rank)
  bcast_S6x1x1x1_S6x1x6x1_0_1_2_3 : S6x1x1x1.BroadcastsInDim S6x1x6x1 (![0, 1, 2, 3] : Fin 4 → Fin S6x1x6x1.rank)
  bcast_S6x1x6x1_S6x8x6x8_0_1_2_3 : S6x1x6x1.BroadcastsInDim S6x8x6x8 (![0, 1, 2, 3] : Fin 4 → Fin S6x8x6x8.rank)
  shapeCasts_S6x8x6x8_S48x48 : S6x8x6x8.ShapeCasts S48x48
  shapeCasts_S6x8x32768_S48x32768 : S6x8x32768.ShapeCasts S48x32768
  shapeCasts_S6x8_S48x1 : S6x8.ShapeCasts S48x1
  transposes_S48x48_S48x48_1_0 : S48x48.Transposes [1, 0] S48x48
  inb_S48x2048_S48x2048_0_0 : ∀ a, (![0, 0] : Fin 2 → Nat) a + S48x2048.size a ≤ S48x2048.size a
  h_S48x2048 : 0 < S48x2048.numel
  shapeCasts_S48x2048_S48x2048 : S48x2048.ShapeCasts S48x2048
  inb_S48x1_S48x1_0_0 : ∀ a, (![0, 0] : Fin 2 → Nat) a + S48x1.size a ≤ S48x1.size a
  h_S48x1 : 0 < S48x1.numel
  shapeCasts_S48x1_S48x1 : S48x1.ShapeCasts S48x1
  inb_S48x48_S48x48_0_0 : ∀ a, (![0, 0] : Fin 2 → Nat) a + S48x48.size a ≤ S48x48.size a
  h_S48x48 : 0 < S48x48.numel
  shapeCasts_S48x48_S48x48 : S48x48.ShapeCasts S48x48
  slices_S48x2048_o0_0_S1x2048 : S48x2048.Slices ![0, 0] S1x2048
  broadcasts_S1x2048_S48x2048 : S1x2048.Broadcasts S48x2048
  slices_S48x48_o0_0_S48x1 : S48x48.Slices ![0, 0] S48x1
  broadcasts_S48x1_S48x2048 : S48x1.Broadcasts S48x2048
  slices_S48x1_o0_0_S1x1 : S48x1.Slices ![0, 0] S1x1
  reduces_S48x2048_S2048 : S48x2048.Reduces [0] S2048
  shapeCasts_S2048_S1x2048 : S2048.ShapeCasts S1x2048
  broadcasts_S1x1_S1x2048 : S1x1.Broadcasts S1x2048
  slices_S48x2048_o1_0_S1x2048 : S48x2048.Slices ![1, 0] S1x2048
  slices_S48x48_o0_1_S48x1 : S48x48.Slices ![0, 1] S48x1
  slices_S48x1_o1_0_S1x1 : S48x1.Slices ![1, 0] S1x1
  slices_S48x2048_o2_0_S1x2048 : S48x2048.Slices ![2, 0] S1x2048
  slices_S48x48_o0_2_S48x1 : S48x48.Slices ![0, 2] S48x1
  slices_S48x1_o2_0_S1x1 : S48x1.Slices ![2, 0] S1x1
  slices_S48x2048_o3_0_S1x2048 : S48x2048.Slices ![3, 0] S1x2048
  slices_S48x48_o0_3_S48x1 : S48x48.Slices ![0, 3] S48x1
  slices_S48x1_o3_0_S1x1 : S48x1.Slices ![3, 0] S1x1
  slices_S48x2048_o4_0_S1x2048 : S48x2048.Slices ![4, 0] S1x2048
  slices_S48x48_o0_4_S48x1 : S48x48.Slices ![0, 4] S48x1
  slices_S48x1_o4_0_S1x1 : S48x1.Slices ![4, 0] S1x1
  slices_S48x2048_o5_0_S1x2048 : S48x2048.Slices ![5, 0] S1x2048
  slices_S48x48_o0_5_S48x1 : S48x48.Slices ![0, 5] S48x1
  slices_S48x1_o5_0_S1x1 : S48x1.Slices ![5, 0] S1x1
  slices_S48x2048_o6_0_S1x2048 : S48x2048.Slices ![6, 0] S1x2048
  slices_S48x48_o0_6_S48x1 : S48x48.Slices ![0, 6] S48x1
  slices_S48x1_o6_0_S1x1 : S48x1.Slices ![6, 0] S1x1
  slices_S48x2048_o7_0_S1x2048 : S48x2048.Slices ![7, 0] S1x2048
  slices_S48x48_o0_7_S48x1 : S48x48.Slices ![0, 7] S48x1
  slices_S48x1_o7_0_S1x1 : S48x1.Slices ![7, 0] S1x1
  slices_S48x2048_o8_0_S1x2048 : S48x2048.Slices ![8, 0] S1x2048
  slices_S48x48_o0_8_S48x1 : S48x48.Slices ![0, 8] S48x1
  slices_S48x1_o8_0_S1x1 : S48x1.Slices ![8, 0] S1x1
  slices_S48x2048_o9_0_S1x2048 : S48x2048.Slices ![9, 0] S1x2048
  slices_S48x48_o0_9_S48x1 : S48x48.Slices ![0, 9] S48x1
  slices_S48x1_o9_0_S1x1 : S48x1.Slices ![9, 0] S1x1
  slices_S48x2048_o10_0_S1x2048 : S48x2048.Slices ![10, 0] S1x2048
  slices_S48x48_o0_10_S48x1 : S48x48.Slices ![0, 10] S48x1
  slices_S48x1_o10_0_S1x1 : S48x1.Slices ![10, 0] S1x1
  slices_S48x2048_o11_0_S1x2048 : S48x2048.Slices ![11, 0] S1x2048
  slices_S48x48_o0_11_S48x1 : S48x48.Slices ![0, 11] S48x1
  slices_S48x1_o11_0_S1x1 : S48x1.Slices ![11, 0] S1x1
  slices_S48x2048_o12_0_S1x2048 : S48x2048.Slices ![12, 0] S1x2048
  slices_S48x48_o0_12_S48x1 : S48x48.Slices ![0, 12] S48x1
  slices_S48x1_o12_0_S1x1 : S48x1.Slices ![12, 0] S1x1
  slices_S48x2048_o13_0_S1x2048 : S48x2048.Slices ![13, 0] S1x2048
  slices_S48x48_o0_13_S48x1 : S48x48.Slices ![0, 13] S48x1
  slices_S48x1_o13_0_S1x1 : S48x1.Slices ![13, 0] S1x1
  slices_S48x2048_o14_0_S1x2048 : S48x2048.Slices ![14, 0] S1x2048
  slices_S48x48_o0_14_S48x1 : S48x48.Slices ![0, 14] S48x1
  slices_S48x1_o14_0_S1x1 : S48x1.Slices ![14, 0] S1x1
  slices_S48x2048_o15_0_S1x2048 : S48x2048.Slices ![15, 0] S1x2048
  slices_S48x48_o0_15_S48x1 : S48x48.Slices ![0, 15] S48x1
  slices_S48x1_o15_0_S1x1 : S48x1.Slices ![15, 0] S1x1
  slices_S48x2048_o16_0_S1x2048 : S48x2048.Slices ![16, 0] S1x2048
  slices_S48x48_o0_16_S48x1 : S48x48.Slices ![0, 16] S48x1
  slices_S48x1_o16_0_S1x1 : S48x1.Slices ![16, 0] S1x1
  slices_S48x2048_o17_0_S1x2048 : S48x2048.Slices ![17, 0] S1x2048
  slices_S48x48_o0_17_S48x1 : S48x48.Slices ![0, 17] S48x1
  slices_S48x1_o17_0_S1x1 : S48x1.Slices ![17, 0] S1x1
  slices_S48x2048_o18_0_S1x2048 : S48x2048.Slices ![18, 0] S1x2048
  slices_S48x48_o0_18_S48x1 : S48x48.Slices ![0, 18] S48x1
  slices_S48x1_o18_0_S1x1 : S48x1.Slices ![18, 0] S1x1
  slices_S48x2048_o19_0_S1x2048 : S48x2048.Slices ![19, 0] S1x2048
  slices_S48x48_o0_19_S48x1 : S48x48.Slices ![0, 19] S48x1
  slices_S48x1_o19_0_S1x1 : S48x1.Slices ![19, 0] S1x1
  slices_S48x2048_o20_0_S1x2048 : S48x2048.Slices ![20, 0] S1x2048
  slices_S48x48_o0_20_S48x1 : S48x48.Slices ![0, 20] S48x1
  slices_S48x1_o20_0_S1x1 : S48x1.Slices ![20, 0] S1x1
  slices_S48x2048_o21_0_S1x2048 : S48x2048.Slices ![21, 0] S1x2048
  slices_S48x48_o0_21_S48x1 : S48x48.Slices ![0, 21] S48x1
  slices_S48x1_o21_0_S1x1 : S48x1.Slices ![21, 0] S1x1
  slices_S48x2048_o22_0_S1x2048 : S48x2048.Slices ![22, 0] S1x2048
  slices_S48x48_o0_22_S48x1 : S48x48.Slices ![0, 22] S48x1
  slices_S48x1_o22_0_S1x1 : S48x1.Slices ![22, 0] S1x1
  slices_S48x2048_o23_0_S1x2048 : S48x2048.Slices ![23, 0] S1x2048
  slices_S48x48_o0_23_S48x1 : S48x48.Slices ![0, 23] S48x1
  slices_S48x1_o23_0_S1x1 : S48x1.Slices ![23, 0] S1x1
  slices_S48x2048_o24_0_S1x2048 : S48x2048.Slices ![24, 0] S1x2048
  slices_S48x48_o0_24_S48x1 : S48x48.Slices ![0, 24] S48x1
  slices_S48x1_o24_0_S1x1 : S48x1.Slices ![24, 0] S1x1
  slices_S48x2048_o25_0_S1x2048 : S48x2048.Slices ![25, 0] S1x2048
  slices_S48x48_o0_25_S48x1 : S48x48.Slices ![0, 25] S48x1
  slices_S48x1_o25_0_S1x1 : S48x1.Slices ![25, 0] S1x1
  slices_S48x2048_o26_0_S1x2048 : S48x2048.Slices ![26, 0] S1x2048
  slices_S48x48_o0_26_S48x1 : S48x48.Slices ![0, 26] S48x1
  slices_S48x1_o26_0_S1x1 : S48x1.Slices ![26, 0] S1x1
  slices_S48x2048_o27_0_S1x2048 : S48x2048.Slices ![27, 0] S1x2048
  slices_S48x48_o0_27_S48x1 : S48x48.Slices ![0, 27] S48x1
  slices_S48x1_o27_0_S1x1 : S48x1.Slices ![27, 0] S1x1
  slices_S48x2048_o28_0_S1x2048 : S48x2048.Slices ![28, 0] S1x2048
  slices_S48x48_o0_28_S48x1 : S48x48.Slices ![0, 28] S48x1
  slices_S48x1_o28_0_S1x1 : S48x1.Slices ![28, 0] S1x1
  slices_S48x2048_o29_0_S1x2048 : S48x2048.Slices ![29, 0] S1x2048
  slices_S48x48_o0_29_S48x1 : S48x48.Slices ![0, 29] S48x1
  slices_S48x1_o29_0_S1x1 : S48x1.Slices ![29, 0] S1x1
  slices_S48x2048_o30_0_S1x2048 : S48x2048.Slices ![30, 0] S1x2048
  slices_S48x48_o0_30_S48x1 : S48x48.Slices ![0, 30] S48x1
  slices_S48x1_o30_0_S1x1 : S48x1.Slices ![30, 0] S1x1
  slices_S48x2048_o31_0_S1x2048 : S48x2048.Slices ![31, 0] S1x2048
  slices_S48x48_o0_31_S48x1 : S48x48.Slices ![0, 31] S48x1
  slices_S48x1_o31_0_S1x1 : S48x1.Slices ![31, 0] S1x1
  slices_S48x2048_o32_0_S1x2048 : S48x2048.Slices ![32, 0] S1x2048
  slices_S48x48_o0_32_S48x1 : S48x48.Slices ![0, 32] S48x1
  slices_S48x1_o32_0_S1x1 : S48x1.Slices ![32, 0] S1x1
  slices_S48x2048_o33_0_S1x2048 : S48x2048.Slices ![33, 0] S1x2048
  slices_S48x48_o0_33_S48x1 : S48x48.Slices ![0, 33] S48x1
  slices_S48x1_o33_0_S1x1 : S48x1.Slices ![33, 0] S1x1
  slices_S48x2048_o34_0_S1x2048 : S48x2048.Slices ![34, 0] S1x2048
  slices_S48x48_o0_34_S48x1 : S48x48.Slices ![0, 34] S48x1
  slices_S48x1_o34_0_S1x1 : S48x1.Slices ![34, 0] S1x1
  slices_S48x2048_o35_0_S1x2048 : S48x2048.Slices ![35, 0] S1x2048
  slices_S48x48_o0_35_S48x1 : S48x48.Slices ![0, 35] S48x1
  slices_S48x1_o35_0_S1x1 : S48x1.Slices ![35, 0] S1x1
  slices_S48x2048_o36_0_S1x2048 : S48x2048.Slices ![36, 0] S1x2048
  slices_S48x48_o0_36_S48x1 : S48x48.Slices ![0, 36] S48x1
  slices_S48x1_o36_0_S1x1 : S48x1.Slices ![36, 0] S1x1
  slices_S48x2048_o37_0_S1x2048 : S48x2048.Slices ![37, 0] S1x2048
  slices_S48x48_o0_37_S48x1 : S48x48.Slices ![0, 37] S48x1
  slices_S48x1_o37_0_S1x1 : S48x1.Slices ![37, 0] S1x1
  slices_S48x2048_o38_0_S1x2048 : S48x2048.Slices ![38, 0] S1x2048
  slices_S48x48_o0_38_S48x1 : S48x48.Slices ![0, 38] S48x1
  slices_S48x1_o38_0_S1x1 : S48x1.Slices ![38, 0] S1x1
  slices_S48x2048_o39_0_S1x2048 : S48x2048.Slices ![39, 0] S1x2048
  slices_S48x48_o0_39_S48x1 : S48x48.Slices ![0, 39] S48x1
  slices_S48x1_o39_0_S1x1 : S48x1.Slices ![39, 0] S1x1
  slices_S48x2048_o40_0_S1x2048 : S48x2048.Slices ![40, 0] S1x2048
  slices_S48x48_o0_40_S48x1 : S48x48.Slices ![0, 40] S48x1
  slices_S48x1_o40_0_S1x1 : S48x1.Slices ![40, 0] S1x1
  slices_S48x2048_o41_0_S1x2048 : S48x2048.Slices ![41, 0] S1x2048
  slices_S48x48_o0_41_S48x1 : S48x48.Slices ![0, 41] S48x1
  slices_S48x1_o41_0_S1x1 : S48x1.Slices ![41, 0] S1x1
  slices_S48x2048_o42_0_S1x2048 : S48x2048.Slices ![42, 0] S1x2048
  slices_S48x48_o0_42_S48x1 : S48x48.Slices ![0, 42] S48x1
  slices_S48x1_o42_0_S1x1 : S48x1.Slices ![42, 0] S1x1
  slices_S48x2048_o43_0_S1x2048 : S48x2048.Slices ![43, 0] S1x2048
  slices_S48x48_o0_43_S48x1 : S48x48.Slices ![0, 43] S48x1
  slices_S48x1_o43_0_S1x1 : S48x1.Slices ![43, 0] S1x1
  slices_S48x2048_o44_0_S1x2048 : S48x2048.Slices ![44, 0] S1x2048
  slices_S48x48_o0_44_S48x1 : S48x48.Slices ![0, 44] S48x1
  slices_S48x1_o44_0_S1x1 : S48x1.Slices ![44, 0] S1x1
  slices_S48x2048_o45_0_S1x2048 : S48x2048.Slices ![45, 0] S1x2048
  slices_S48x48_o0_45_S48x1 : S48x48.Slices ![0, 45] S48x1
  slices_S48x1_o45_0_S1x1 : S48x1.Slices ![45, 0] S1x1
  slices_S48x2048_o46_0_S1x2048 : S48x2048.Slices ![46, 0] S1x2048
  slices_S48x48_o0_46_S48x1 : S48x48.Slices ![0, 46] S48x1
  slices_S48x1_o46_0_S1x1 : S48x1.Slices ![46, 0] S1x1
  slices_S48x2048_o47_0_S1x2048 : S48x2048.Slices ![47, 0] S1x2048
  slices_S48x48_o0_47_S48x1 : S48x48.Slices ![0, 47] S48x1
  slices_S48x1_o47_0_S1x1 : S48x1.Slices ![47, 0] S1x1
  inb_S1x2048_S1x2048_0_0 : ∀ a, (![0, 0] : Fin 2 → Nat) a + S1x2048.size a ≤ S1x2048.size a
  h_S1x2048 : 0 < S1x2048.numel
  shapeCasts_S1x32768_S32768 : S1x32768.ShapeCasts S32768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S48x2048.size a ≤ S48x32768.size a
  hwx0_0 : ∀ i : grid0.Coords, EltTy.bits .f32 = 32 ∨ (Rect.block (s := S48x32768) S48x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x1.size a ≤ S48x1.size a
  hwx0_1 : ∀ i : grid0.Coords, EltTy.bits .f32 = 32 ∨ (Rect.block (s := S48x1) S48x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x48.size a ≤ S48x48.size a
  hwx0_2 : ∀ i : grid0.Coords, EltTy.bits .f32 = 32 ∨ (Rect.block (s := S48x48) S48x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x48.size a ≤ S48x48.size a
  hwx0_3 : ∀ i : grid0.Coords, EltTy.bits .f32 = 32 ∨ (Rect.block (s := S48x48) S48x48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x32768.size a
  hwx0_4 : ∀ i : grid0.Coords, EltTy.bits .f32 = 32 ∨ (Rect.block (s := S1x32768) S1x2048.size (cc0_transform_4 i) (hinb0_4 i)).WholeWords (EltTy.packing .f32)

variable [Facts₀]

abbrev win0_0 : Pipeline.Window sig grid0 :=
  Pipeline.Window.ofSpec (Memref.whole main_v12) S48x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S48x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S48x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S48x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S6x8x32768 : Shape := ⟨3, ![6, 8, 32768]⟩
abbrev S6x8 : Shape := ⟨2, ![6, 8]⟩
abbrev S6x8x6x8 : Shape := ⟨4, ![6, 8, 6, 8]⟩
abbrev S6 : Shape := ⟨1, ![6]⟩
abbrev S6x1x1x1 : Shape := ⟨4, ![6, 1, 1, 1]⟩
abbrev S1x1x6x1 : Shape := ⟨4, ![1, 1, 6, 1]⟩
abbrev S6x1x6x1 : Shape := ⟨4, ![6, 1, 6, 1]⟩
abbrev S6x8x1x1x32768 : Shape := ⟨5, ![6, 8, 1, 1, 32768]⟩
abbrev S1x1x6x8x32768 : Shape := ⟨5, ![1, 1, 6, 8, 32768]⟩
abbrev S6x8x6x8x32768 : Shape := ⟨5, ![6, 8, 6, 8, 32768]⟩
abbrev S6x8x6x8x1 : Shape := ⟨5, ![6, 8, 6, 8, 1]⟩
abbrev S6x8x1 : Shape := ⟨3, ![6, 8, 1]⟩
abbrev S_ : Shape := ⟨0, ![]⟩
abbrev S32768 : Shape := ⟨1, ![32768]⟩

abbrev nBuf : Space → Nat
  | .hbm => 40
  | .vmem => 0
  | .smem => 0
  | _ => 0

abbrev bufTy : (tb : Table) → Fin (tcTables nBuf tb) → BufTy
  | .hbm, ⟨0, _⟩ => ⟨S6x8x32768, .f32⟩
  | .hbm, ⟨1, _⟩ => ⟨S6x8, .f32⟩
  | .hbm, ⟨2, _⟩ => ⟨S6x8x6x8, .f32⟩
  | .hbm, ⟨3, _⟩ => ⟨S6x8x6x8, .f32⟩
  | .hbm, ⟨4, _⟩ => ⟨S6, .i32⟩
  | .hbm, ⟨5, _⟩ => ⟨S6x1x1x1, .i32⟩
  | .hbm, ⟨6, _⟩ => ⟨S6, .i32⟩
  | .hbm, ⟨7, _⟩ => ⟨S1x1x6x1, .i32⟩
  | .hbm, ⟨8, _⟩ => ⟨S6x1x6x1, .i32⟩
  | .hbm, ⟨9, _⟩ => ⟨S6x1x6x1, .i32⟩
  | .hbm, ⟨10, _⟩ => ⟨S6x1x6x1, .i1⟩
  | .hbm, ⟨11, _⟩ => ⟨S6x8x6x8, .i1⟩
  | .hbm, ⟨12, _⟩ => ⟨S6x8x6x8, .f32⟩
  | .hbm, ⟨13, _⟩ => ⟨S6x8x1x1x32768, .f32⟩
  | .hbm, ⟨14, _⟩ => ⟨S1x1x6x8x32768, .f32⟩
  | .hbm, ⟨15, _⟩ => ⟨S6x8x6x8x32768, .f32⟩
  | .hbm, ⟨16, _⟩ => ⟨S6x8x6x8x32768, .f32⟩
  | .hbm, ⟨17, _⟩ => ⟨S6x8x6x8x32768, .f32⟩
  | .hbm, ⟨18, _⟩ => ⟨S6x8x6x8x1, .f32⟩
  | .hbm, ⟨19, _⟩ => ⟨S6x8x6x8x1, .f32⟩
  | .hbm, ⟨20, _⟩ => ⟨S6x8x6x8x32768, .f32⟩
  | .hbm, ⟨21, _⟩ => ⟨S6x8x6x8x32768, .f32⟩
  | .hbm, ⟨22, _⟩ => ⟨S6x8x6x8x32768, .f32⟩
  | .hbm, ⟨23, _⟩ => ⟨S6x8x1, .f32⟩
  | .hbm, ⟨24, _⟩ => ⟨S6x8x6x8, .f32⟩
  | .hbm, ⟨25, _⟩ => ⟨S6x8x6x8x1, .f32⟩
  | .hbm, ⟨26, _⟩ => ⟨S6x8x6x8x32768, .f32⟩
  | .hbm, ⟨27, _⟩ => ⟨S6x8x6x8x32768, .f32⟩
  | .hbm, ⟨28, _⟩ => ⟨S_, .f32⟩
  | .hbm, ⟨29, _⟩ => ⟨S6x8x32768, .f32⟩
  | .hbm, ⟨30, _⟩ => ⟨S6x8x32768, .f32⟩
  | .hbm, ⟨31, _⟩ => ⟨S6x8x32768, .f32⟩
  | .hbm, ⟨32, _⟩ => ⟨S_, .f32⟩
  | .hbm, ⟨33, _⟩ => ⟨S6x8x32768, .f32⟩
  | .hbm, ⟨34, _⟩ => ⟨S6x8x32768, .f32⟩
  | .hbm, ⟨35, _⟩ => ⟨S6x8x32768, .f32⟩
  | .hbm, ⟨36, _⟩ => ⟨S6x8x32768, .f32⟩
  | .hbm, ⟨37, _⟩ => ⟨S6x8x32768, .f32⟩
  | .hbm, ⟨38, _⟩ => ⟨S_, .f32⟩
  | .hbm, ⟨39, _⟩ => ⟨S32768, .f32⟩
  | _, _ => ⟨S6x8x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  bcast_S6_S6x1x1x1_0 : S6.BroadcastsInDim S6x1x1x1 (![0] : Fin 1 → Fin S6x1x1x1.rank)
  bcast_S6_S1x1x6x1_2 : S6.BroadcastsInDim S1x1x6x1 (![2] : Fin 1 → Fin S1x1x6x1.rank)
  bcast_S1x1x6x1_S6x1x6x1_0_1_2_3 : S1x1x6x1.BroadcastsInDim S6x1x6x1 (![0, 1, 2, 3] : Fin 4 → Fin S6x1x6x1.rank)
  bcast_S6x1x1x1_S6x1x6x1_0_1_2_3 : S6x1x1x1.BroadcastsInDim S6x1x6x1 (![0, 1, 2, 3] : Fin 4 → Fin S6x1x6x1.rank)
  bcast_S6x1x6x1_S6x8x6x8_0_1_2_3 : S6x1x6x1.BroadcastsInDim S6x8x6x8 (![0, 1, 2, 3] : Fin 4 → Fin S6x8x6x8.rank)
  bcast_S6x8x32768_S6x8x1x1x32768_0_1_4 : S6x8x32768.BroadcastsInDim S6x8x1x1x32768 (![0, 1, 4] : Fin 3 → Fin S6x8x1x1x32768.rank)
  bcast_S6x8x32768_S1x1x6x8x32768_2_3_4 : S6x8x32768.BroadcastsInDim S1x1x6x8x32768 (![2, 3, 4] : Fin 3 → Fin S1x1x6x8x32768.rank)
  bcast_S6x8x1x1x32768_S6x8x6x8x32768_0_1_2_3_4 : S6x8x1x1x32768.BroadcastsInDim S6x8x6x8x32768 (![0, 1, 2, 3, 4] : Fin 5 → Fin S6x8x6x8x32768.rank)
  bcast_S1x1x6x8x32768_S6x8x6x8x32768_0_1_2_3_4 : S1x1x6x8x32768.BroadcastsInDim S6x8x6x8x32768 (![0, 1, 2, 3, 4] : Fin 5 → Fin S6x8x6x8x32768.rank)
  bcast_S6x8x6x8_S6x8x6x8x1_0_1_2_3 : S6x8x6x8.BroadcastsInDim S6x8x6x8x1 (![0, 1, 2, 3] : Fin 4 → Fin S6x8x6x8x1.rank)
  bcast_S6x8x6x8x1_S6x8x6x8x32768_0_1_2_3_4 : S6x8x6x8x1.BroadcastsInDim S6x8x6x8x32768 (![0, 1, 2, 3, 4] : Fin 5 → Fin S6x8x6x8x32768.rank)
  bcast_S6x8_S6x8x1_0_1 : S6x8.BroadcastsInDim S6x8x1 (![0, 1] : Fin 2 → Fin S6x8x1.rank)
  reducesTo_S6x8x6x8x32768_S6x8x32768_d2_3 : S6x8x6x8x32768.ReducesTo [2, 3] S6x8x32768
  h_S_ : 0 < S_.numel
  bcast_S6x8x1_S6x8x32768_0_1_2 : S6x8x1.BroadcastsInDim S6x8x32768 (![0, 1, 2] : Fin 3 → Fin S6x8x32768.rank)
  bcast_S_S6x8x32768 : S_.BroadcastsInDim S6x8x32768 (![] : Fin 0 → Fin S6x8x32768.rank)
  reducesTo_S6x8x32768_S32768_d0_1 : S6x8x32768.ReducesTo [0, 1] S32768

variable [Facts₀]

class Facts : Prop extends Facts₀ where

variable [Facts]
-- ==== Proof.BodyFold.lean ====
/-
  The kernel body is one loop over the 48 nodes, written out 48 times. This file says so: one turn of the loop as a
  function of the node number `p` (`turn`), the accumulator after the first `n` turns by recursion on `n`
  (`accAfter`), and that what the body stores into the output block is the accumulator after all 48 turns.
  One turn, for node `p`, on a block of 2048 events (columns): with `t` the 48 × 2048 block of event times,
  `t_p` its row `p`, `mu_p` the base rate, column `p` of the two transposed parameter matrices as one-column
  matrices `w` and `b`,
      lam = mu_p + Σ over the rows q of  w[q] · exp ((0 − b[q]) · (t_p − t[q])),
      acc ↦ (acc + log1p (lam − 1) · t_p) − lam.
-/
import proofs.«138490_j17721035064124_1_alg».proof.Proof.Gen.KernelIdeal.Frame

set_option maxRecDepth 16384

noncomputable section

namespace Cert.KernelIdeal.Body

open Idealize.ShloMosaic Cert.KernelIdeal Cert.KernelIdeal.Gen

variable {F : FTy → Type} [FloatOps F]

/-- Row `p` of the 48 × 2048 block is a block of it. -/
theorem row_slices (p : Nat) (hp : p < 48) : S48x2048.Slices ![p, 0] S1x2048 :=
  ⟨rfl, fun a => match a with
    | ⟨0, _⟩ => by show p + 1 ≤ 48; omega
    | ⟨1, _⟩ => by show 0 + 2048 ≤ 2048; omega⟩

/-- Column `p` of a 48 × 48 matrix is a block of it. -/
theorem col_slices (p : Nat) (hp : p < 48) : S48x48.Slices ![0, p] S48x1 :=
  ⟨rfl, fun a => match a with
    | ⟨0, _⟩ => by show 0 + 48 ≤ 48; omega
    | ⟨1, _⟩ => by show p + 1 ≤ 48; omega⟩

/-- Entry `p` of the 48 × 1 column of base rates is a block of it. -/
theorem entry_slices (p : Nat) (hp : p < 48) : S48x1.Slices ![p, 0] S1x1 :=
  ⟨rfl, fun a => match a with
    | ⟨0, _⟩ => by show p + 1 ≤ 48; omega
    | ⟨1, _⟩ => by show 0 + 1 ≤ 1; omega⟩

/-- The intensity row of node `p`: its base rate plus, summed over the rows `q`, the weight of `q` on `p` times
    the exponential decay of the time difference. -/
def lamRow (t : FVec F S48x2048 .f32) (mu : FVec F S48x1 .f32) (wT bT : FVec F S48x48 .f32) (p : Nat) (hp : p < 48) :
    FVec F S1x2048 .f32 :=
  addf (broadcastTo S1x2048 (extractStridedSlice S1x1 ![p, 0] mu (entry_slices p hp)) broadcasts_S1x1_S1x2048)
    (shapeCast S1x2048
      (multiReduction .add [0] S2048
        (mulf (broadcastTo S48x2048 (extractStridedSlice S48x1 ![0, p] wT (col_slices p hp)) broadcasts_S48x1_S48x2048)
          (exp (mulf
            (broadcastTo S48x2048
              (subf (broadcast S48x1 (Scalar.ofBits .f32 0x00000000#32)) (extractStridedSlice S48x1 ![0, p] bT (col_slices p hp)))
              broadcasts_S48x1_S48x2048)
            (subf (broadcastTo S48x2048 (extractStridedSlice S1x2048 ![p, 0] t (row_slices p hp)) broadcasts_S1x2048_S48x2048) t))))
        0x00000000#32 reduces_S48x2048_S2048 (.inl rfl) rfl)
      shapeCasts_S2048_S1x2048)

/-- One turn of the loop, for node `p`. -/
def turn (t : FVec F S48x2048 .f32) (mu : FVec F S48x1 .f32) (wT bT : FVec F S48x48 .f32) (p : Nat) (hp : p < 48)
    (acc : FVec F S1x2048 .f32) : FVec F S1x2048 .f32 :=
  subf
    (addf acc
      (mulf (log1p (subf (lamRow t mu wT bT p hp) (broadcast S1x2048 (Scalar.ofBits .f32 0x3F800000#32))))
        (extractStridedSlice S1x2048 ![p, 0] t (row_slices p hp))))
    (lamRow t mu wT bT p hp)

/-- The accumulator after the turns for the nodes `0, …, n − 1`, from the zero row. -/
def accAfter (t : FVec F S48x2048 .f32) (mu : FVec F S48x1 .f32) (wT bT : FVec F S48x48 .f32) :
    (n : Nat) → n ≤ 48 → FVec F S1x2048 .f32
  | 0, _ => broadcast S1x2048 (Scalar.ofBits .f32 0x00000000#32)
  | n + 1, h => turn t mu wT bT n (by omega) (accAfter t mu wT bT n (by omega))

/-- What the body leaves in the output block is the accumulator after all 48 turns, stored whole. -/
theorem out_eq (x0 : Vec F S48x2048 .f32) (x1 : Vec F S48x1 .f32) (x2 x3 : Vec F S48x48 .f32) :
    out0_4 x0 x1 x2 x3
      = View.canon [⟨r0_3, accAfter (k0_pay2 (View.ld x0 r0_0)) (k0_pay3 (View.ld x1 r0_1)) (k0_pay4 (View.ld x2 r0_2))
          (k0_pay5 (View.ld x3 r0_2)) 48 (le_refl 48)⟩] := rfl

end Cert.KernelIdeal.Body

end
-- ==== Proof.HawkesSpec.lean ====
/-
  What both programs compute, as one function of the four argument arrays, and the law that joins the kernel's
  arrangement of it to the reference's.

  There are 48 nodes, node `p` being layer `p / 8`, group `p % 8`. At one event `s`, with `t` the event times,
  `mu` the base rates, `w` the masked excitation weights and `beta` the decay rates, the intensity of node (a, b) is
      lam (a, b) = mu (a, b) + (0 + Σ over the nodes (c, d) of  w (a, b, c, d) · exp (−beta (a, b, c, d) · (t (a, b, s) − t (c, d, s)))),
  and the result at `s` is
      0 + Σ over the nodes (a, b) of  (log1p (lam (a, b) − 1) · t (a, b, s) − lam (a, b)).
  The kernel works on the arrays flattened to 48 rows (the two parameter matrices also transposed), writes `−beta`
  as `0 − beta`, sums over the node number, and adds each node's two terms to a running total one after the other:
  `(acc + log1p (lam − 1) · t) − lam`. On the extended reals addition is commutative and associative, `x − y` is
  `x + −y` and `0 − x` is `−x`, whatever `x` and `y` are, so the two arrangements are equal at every input: no
  finiteness is used.
-/
import Idealize.ShloMosaic.PureOps.Ideal
import Idealize.ShloMosaic.PureOps.Ideal.Laws
import Idealize.ShloMosaic.Lib.ValueIdx

noncomputable section

namespace Cert.Hawkes

open Idealize.ShloMosaic Idealize.ShloMosaic.ValueIdx

/-! ## Nodes: 6 layers of 8 groups, numbered row-major -/

/-- The number of node (layer `a`, group `b`). -/
def node (a : Fin 6) (b : Fin 8) : Fin 48 := ⟨a.val * 8 + b.val, by omega⟩
/-- A node's layer. -/
def layer (p : Fin 48) : Fin 6 := ⟨p.val / 8, by omega⟩
/-- A node's group. -/
def group (p : Fin 48) : Fin 8 := ⟨p.val % 8, by omega⟩

theorem layer_node (a : Fin 6) (b : Fin 8) : layer (node a b) = a := by
  apply Fin.ext; show (a.val * 8 + b.val) / 8 = a.val; omega
theorem group_node (a : Fin 6) (b : Fin 8) : group (node a b) = b := by
  apply Fin.ext; show (a.val * 8 + b.val) % 8 = b.val; omega
theorem node_layer_group (p : Fin 48) : node (layer p) (group p) = p := by
  apply Fin.ext; show p.val / 8 * 8 + p.val % 8 = p.val; omega

/-- Nodes are the pairs (layer, group). -/
def nodeEquiv : Fin 6 × Fin 8 ≃ Fin 48 where
  toFun x := node x.1 x.2
  invFun p := (layer p, group p)
  left_inv x := Prod.ext (layer_node x.1 x.2) (group_node x.1 x.2)
  right_inv p := node_layer_group p

/-- A sum over the nodes is the sum over the layers of the sums over the groups. -/
theorem sum_nodes {M : Type*} [AddCommMonoid M] (f : Fin 48 → M) :
    ∑ p : Fin 48, f p = ∑ a : Fin 6, ∑ b : Fin 8, f (node a b) := by
  rw [← nodeEquiv.sum_comp f, Fintype.sum_prod_type]
  rfl

/-! ## The result, on the argument arrays -/

/-- The float `1.0`, as both programs write it. -/
abbrev one : EReal := Ideal.ofBits .f32 0x3F800000#32

/-- The intensity of node (a, b) at event `s`. -/
def lam (t : (⟨3, ![6, 8, 32768]⟩ : Shape).Idx → EReal) (mu : (⟨2, ![6, 8]⟩ : Shape).Idx → EReal)
    (w beta : (⟨4, ![6, 8, 6, 8]⟩ : Shape).Idx → EReal) (a : Fin 6) (b : Fin 8) (s : Fin 32768) : EReal :=
  mu (ix2 a b)
    + (0 + ∑ c : Fin 6, ∑ d : Fin 8,
        w (ix4 a b c d) * Ideal.exp (-(beta (ix4 a b c d)) * (t (ix3 a b s) - t (ix3 c d s))))

/-- The result: at event `s`, the sum over the nodes of `log1p (lam − 1) · t − lam`. -/
def G (t : (⟨3, ![6, 8, 32768]⟩ : Shape).Idx → EReal) (mu : (⟨2, ![6, 8]⟩ : Shape).Idx → EReal)
    (w beta : (⟨4, ![6, 8, 6, 8]⟩ : Shape).Idx → EReal) : (⟨1, ![32768]⟩ : Shape).Idx → EReal :=
  fun i => 0 + ∑ a : Fin 6, ∑ b : Fin 8,
    (Ideal.log1p (lam t mu w beta a b (i 0) - one) * t (ix3 a b (i 0)) - lam t mu w beta a b (i 0))

/-! ## The kernel's arrangement, on the flattened arrays -/

/-- The intensity of node `p` at event `s` as the kernel computes it: `T` the times, one row per node; `M` the base
    rates as a column; `WT` and `BT` the weights and the decay rates transposed (row `q`, column `p`: of `q` on `p`). -/
def lamK {n : ℕ} (T : (⟨2, ![48, n]⟩ : Shape).Idx → EReal) (M : (⟨2, ![48, 1]⟩ : Shape).Idx → EReal)
    (WT BT : (⟨2, ![48, 48]⟩ : Shape).Idx → EReal) (p : Fin 48) (s : Fin n) : EReal :=
  M (ix2 p (0 : Fin 1))
    + ∑ q : Fin 48, WT (ix2 q p) * Ideal.exp ((0 - BT (ix2 q p)) * (T (ix2 p s) - T (ix2 q s)))

/-- Node `p`'s two terms at event `s`. -/
def termK {n : ℕ} (T : (⟨2, ![48, n]⟩ : Shape).Idx → EReal) (M : (⟨2, ![48, 1]⟩ : Shape).Idx → EReal)
    (WT BT : (⟨2, ![48, 48]⟩ : Shape).Idx → EReal) (p : Fin 48) (s : Fin n) : EReal :=
  Ideal.log1p (lamK T M WT BT p s - one) * T (ix2 p s) - lamK T M WT BT p s

/-- The kernel's output row: at event `s`, the sum over the node numbers of the node's two terms. -/
def K (T : (⟨2, ![48, 32768]⟩ : Shape).Idx → EReal) (M : (⟨2, ![48, 1]⟩ : Shape).Idx → EReal)
    (WT BT : (⟨2, ![48, 48]⟩ : Shape).Idx → EReal) : (⟨2, ![1, 32768]⟩ : Shape).Idx → EReal :=
  fun i => ∑ p : Fin 48, termK T M WT BT p (i 1)

/-- A node's two terms at an event depend only on that event's column of the times, on the node's base rate and on
    the node's column of the two parameter matrices: two sets of arrays that agree there give the same terms (the
    columns may sit at different positions of arrays of different widths: a block and the whole array). -/
theorem termK_congr {n n' : ℕ} (T : (⟨2, ![48, n]⟩ : Shape).Idx → EReal) (T' : (⟨2, ![48, n']⟩ : Shape).Idx → EReal)
    (M M' : (⟨2, ![48, 1]⟩ : Shape).Idx → EReal) (WT WT' BT BT' : (⟨2, ![48, 48]⟩ : Shape).Idx → EReal)
    (p : Fin 48) (s : Fin n) (s' : Fin n')
    (hT : ∀ q : Fin 48, T (ix2 q s) = T' (ix2 q s')) (hM : M (ix2 p (0 : Fin 1)) = M' (ix2 p (0 : Fin 1)))
    (hW : ∀ q : Fin 48, WT (ix2 q p) = WT' (ix2 q p)) (hB : ∀ q : Fin 48, BT (ix2 q p) = BT' (ix2 q p)) :
    termK T M WT BT p s = termK T' M' WT' BT' p s' := by
  have hl : lamK T M WT BT p s = lamK T' M' WT' BT' p s' := by
    unfold lamK
    rw [hM, hT p]
    exact congrArg _ (Finset.sum_congr rfl fun q _ => by rw [hW q, hB q, hT q])
  unfold termK
  rw [hl, hT p]

/-! ## The law -/

/-- Adding a node's first term and then subtracting its second is adding their difference: `x − y` is `x + −y`
    and addition is associative, on all of the extended reals. -/
theorem add_sub_eq (acc x y : EReal) : (acc + x) - y = acc + (x - y) := by
  rw [sub_eq_add_neg, sub_eq_add_neg, add_assoc]

/-- The running total after the first `n` nodes is the sum of their differences. -/
theorem running_total (x y : ℕ → EReal) (acc : ℕ → EReal) (h0 : acc 0 = 0)
    (hs : ∀ n, acc (n + 1) = (acc n + x n) - y n) (n : ℕ) : acc n = ∑ p ∈ Finset.range n, (x p - y p) := by
  induction n with
  | zero => rw [h0, Finset.range_zero, Finset.sum_empty]
  | succ n ih => rw [hs, add_sub_eq, ih, Finset.sum_range_succ]

/-- If the flattened arrays are the argument arrays laid out by node number — the times and base rates row by row,
    the two parameter matrices transposed — the kernel's row is the result. -/
theorem K_eq_G (t : (⟨3, ![6, 8, 32768]⟩ : Shape).Idx → EReal) (mu : (⟨2, ![6, 8]⟩ : Shape).Idx → EReal)
    (w beta : (⟨4, ![6, 8, 6, 8]⟩ : Shape).Idx → EReal)
    (T : (⟨2, ![48, 32768]⟩ : Shape).Idx → EReal) (M : (⟨2, ![48, 1]⟩ : Shape).Idx → EReal)
    (WT BT : (⟨2, ![48, 48]⟩ : Shape).Idx → EReal)
    (hT : ∀ (a : Fin 6) (b : Fin 8) (s : Fin 32768), T (ix2 (node a b) s) = t (ix3 a b s))
    (hM : ∀ (a : Fin 6) (b : Fin 8), M (ix2 (node a b) (0 : Fin 1)) = mu (ix2 a b))
    (hW : ∀ (a : Fin 6) (b : Fin 8) (c : Fin 6) (d : Fin 8), WT (ix2 (node c d) (node a b)) = w (ix4 a b c d))
    (hB : ∀ (a : Fin 6) (b : Fin 8) (c : Fin 6) (d : Fin 8), BT (ix2 (node c d) (node a b)) = beta (ix4 a b c d))
    (u : Fin 1) (s : Fin 32768) : K T M WT BT (ix2 u s) = G t mu w beta (ix1 s) := by
  have hlam : ∀ (a : Fin 6) (b : Fin 8), lamK T M WT BT (node a b) s = lam t mu w beta a b s := by
    intro a b
    unfold lamK lam
    rw [hM, sum_nodes, zero_add]
    refine congrArg _ (Finset.sum_congr rfl fun c _ => Finset.sum_congr rfl fun d _ => ?_)
    rw [hW, hB, hT, hT, zero_sub]
  show ∑ p : Fin 48, termK T M WT BT p s = 0 + ∑ a : Fin 6, ∑ b : Fin 8, _
  rw [sum_nodes, zero_add]
  refine Finset.sum_congr rfl fun a _ => Finset.sum_congr rfl fun b _ => ?_
  unfold termK
  rw [hlam, hT]

end Cert.Hawkes

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyRead.lean ====
/-
  One turn of the kernel's loop, and the accumulator after any number of turns, read at one event column of the
  block at the ideal values: the turn for node `p` adds `log1p (lam_p − 1) · t_p` and subtracts `lam_p`, where
  `lam_p` at column `j` is the base rate of `p` plus the sum over the rows `q` of the weight times the exponential
  decay — the column sum of a 48-row array being the sum over its 48 rows. After all 48 turns the accumulator at
  column `j` is the sum over the nodes of each node's two terms.
-/
import proofs.«138490_j17721035064124_1_alg».proof.Proof.BodyFold
import proofs.«138490_j17721035064124_1_alg».proof.Proof.HawkesSpec
import proofs.«138490_j17721035064124_1_alg».proof.Proof.LibColumns
import Idealize.ShloMosaic.Lib.ValueLayout
import Idealize.ShloMosaic.PureOps.Ideal.Laws

set_option maxRecDepth 16384

noncomputable section

namespace Cert.KernelIdeal.Body

open Idealize.ShloMosaic Idealize.ShloMosaic.ValueIdx Cert.KernelIdeal Cert.KernelIdeal.Gen Cert.Hawkes

/-! ## The pieces of a turn at an index -/

theorem exp_apply {s : Shape} {φ : FTy} (a : FVec Ideal s φ) (i : s.Idx) : exp a i = Ideal.exp (a i) := rfl
theorem log1p_apply {s : Shape} {φ : FTy} (a : FVec Ideal s φ) (i : s.Idx) : log1p a i = Ideal.log1p (a i) := rfl

/-- Row `p` of the block of times, at column `j`. -/
theorem row_read (t : FVec Ideal S48x2048 .f32) (p : Nat) (hp : p < 48) (u : Fin 1) (j : Fin 2048) :
    extractStridedSlice S1x2048 ![p, 0] t (row_slices p hp) (ix2 u j) = t (ix2 (⟨p, hp⟩ : Fin 48) j) :=
  slice2_axis0_apply p t (row_slices p hp) u j ⟨p, hp⟩ (by have := u.isLt; show p = p + u.val; omega)

/-- Column `p` of a parameter matrix, at row `q`. -/
theorem col_read (x : FVec Ideal S48x48 .f32) (p : Nat) (hp : p < 48) (q : Fin 48) (u : Fin 1) :
    extractStridedSlice S48x1 ![0, p] x (col_slices p hp) (ix2 q u) = x (ix2 q (⟨p, hp⟩ : Fin 48)) :=
  slice2_axis1_apply p x (col_slices p hp) q u ⟨p, hp⟩ (by have := u.isLt; show p = p + u.val; omega)

/-- Entry `p` of the column of base rates. -/
theorem entry_read (mu : FVec Ideal S48x1 .f32) (p : Nat) (hp : p < 48) (u v : Fin 1) :
    extractStridedSlice S1x1 ![p, 0] mu (entry_slices p hp) (ix2 u v) = mu (ix2 (⟨p, hp⟩ : Fin 48) (0 : Fin 1)) :=
  (slice2_axis0_apply p mu (entry_slices p hp) u v ⟨p, hp⟩ (by have := u.isLt; show p = p + u.val; omega)).trans
    (congrArg (fun e => mu (ix2 (⟨p, hp⟩ : Fin 48) e)) (Subsingleton.elim v 0))

/-- The sum down the columns of a 48-row array, at column `j`: the sum over the rows. -/
theorem colsum_read (src : FVec Ideal S48x2048 .f32) (hφ : FKind.Formats .f32)
    (hacc : (0x00000000#32 : BitVec 32) = FKind.add.neutral .f32 hφ) (j : Fin 2048) :
    multiReduction .add [0] S2048 src 0x00000000#32 reduces_S48x2048_S2048 hφ hacc (ix1 j) = ∑ q : Fin 48, src (ix2 q j) :=
  (Ideal.multiReduction_add_single src 0x00000000#32 reduces_S48x2048_S2048 hφ hacc (ix1 j)).trans
    (Finset.sum_congr rfl fun q _ => congrArg src
      (funext fun a => Fin.ext (by match a with | ⟨0, _⟩ => rfl | ⟨1, _⟩ => rfl)))

/-! ## A turn at an index -/

/-- The intensity row of node `p` at column `j`. -/
theorem lamRow_apply (t : FVec Ideal S48x2048 .f32) (mu : FVec Ideal S48x1 .f32) (wT bT : FVec Ideal S48x48 .f32)
    (p : Nat) (hp : p < 48) (u : Fin 1) (j : Fin 2048) :
    lamRow t mu wT bT p hp (ix2 u j) = lamK t mu wT bT ⟨p, hp⟩ j := by
  unfold lamRow lamK
  rw [addf_apply, broadcastTo_a1_ab_apply, entry_read mu p hp, shapeCast_a_1a_apply]
  refine congrArg (fun z => mu (ix2 (⟨p, hp⟩ : Fin 48) (0 : Fin 1)) + z)
    ((colsum_read _ _ _ j).trans (Finset.sum_congr rfl fun q _ => ?_))
  rw [mulf_apply, broadcastTo_a1_ab_apply, col_read wT p hp, exp_apply, mulf_apply, broadcastTo_a1_ab_apply, subf_apply,
    broadcast_apply, col_read bT p hp, subf_apply, broadcastTo_1b_ab_apply, row_read t p hp]
  show _ * Ideal.exp ((Ideal.ofBits .f32 0x00000000#32 - _) * _) = _
  rw [Ideal.ofBits_zero_f32]

/-- One turn at column `j`: the accumulator plus node `p`'s first term, minus its second. -/
theorem turn_apply (t : FVec Ideal S48x2048 .f32) (mu : FVec Ideal S48x1 .f32) (wT bT : FVec Ideal S48x48 .f32)
    (p : Nat) (hp : p < 48) (acc : FVec Ideal S1x2048 .f32) (u : Fin 1) (j : Fin 2048) :
    turn t mu wT bT p hp acc (ix2 u j)
      = (acc (ix2 u j) + Ideal.log1p (lamK t mu wT bT ⟨p, hp⟩ j - one) * t (ix2 (⟨p, hp⟩ : Fin 48) j))
          - lamK t mu wT bT ⟨p, hp⟩ j := by
  unfold turn
  rw [subf_apply, addf_apply, mulf_apply, log1p_apply, subf_apply, lamRow_apply t mu wT bT p hp, row_read t p hp,
    broadcast_apply]
  rfl

/-! ## The accumulator -/

/-- After the turns of the first `n` nodes the accumulator at column `j` is the sum of their terms. -/
theorem accAfter_apply (t : FVec Ideal S48x2048 .f32) (mu : FVec Ideal S48x1 .f32) (wT bT : FVec Ideal S48x48 .f32)
    (u : Fin 1) (j : Fin 2048) : ∀ (n : Nat) (h : n ≤ 48),
    accAfter t mu wT bT n h (ix2 u j) = ∑ p : Fin n, termK t mu wT bT (Fin.castLE h p) j
  | 0, _ => by
    show Ideal.ofBits .f32 0x00000000#32 = _
    rw [Ideal.ofBits_zero_f32, Finset.univ_eq_empty, Finset.sum_empty]
  | n + 1, h => by
    show turn t mu wT bT n _ (accAfter t mu wT bT n _) (ix2 u j) = _
    rw [turn_apply, accAfter_apply t mu wT bT u j n (by omega), add_sub_eq, Fin.sum_univ_castSucc]
    rfl

/-- After all 48 turns: the sum over the nodes. -/
theorem accAll_apply (t : FVec Ideal S48x2048 .f32) (mu : FVec Ideal S48x1 .f32) (wT bT : FVec Ideal S48x48 .f32)
    (u : Fin 1) (j : Fin 2048) :
    accAfter t mu wT bT 48 (le_refl 48) (ix2 u j) = ∑ p : Fin 48, termK t mu wT bT p j :=
  accAfter_apply t mu wT bT u j 48 (le_refl 48)

end Cert.KernelIdeal.Body

end
-- ==== Proof.KernelBlocks.lean ====
/-
  From the blocks to the array: the kernel's output array after the run, as one function of the four arrays the region
  is launched on. Point `t` of the 16-point grid is called on columns `2048·t … 2048·t + 2047` of the times (all 48 rows) and on
  the three parameter arrays whole, and writes the row of 2048 results back to the same columns of the 1 × 32768 output.
  A result depends only on its own column of the times, so what point `t` writes is block `t` of the one row `K` of the
  whole arrays; the 16 blocks cover the output, column `s` lying in block `s / 2048`.
-/
import proofs.«138490_j17721035064124_1_alg».proof.Proof.BodyRead
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.Hawkes

variable (m : (ℓ : Loc nD τ sig) → Buf (Elt Ideal) ℓ)

theorem hz : (![0, 0] : Fin 2 → Nat) = fun _ => 0 := funext fun a => by fin_cases a <;> rfl

/-- The body's first four values are its loaded blocks themselves (a cast to the same shape). -/
theorem pay2_eq (x : Vec Ideal S48x2048 .f32) : k0_pay2 x = x := by unfold k0_pay2; exact shapeCast_self _ _
theorem pay3_eq (x : Vec Ideal S48x1 .f32) : k0_pay3 x = x := by unfold k0_pay3; exact shapeCast_self _ _
theorem pay4_eq (x : Vec Ideal S48x48 .f32) : k0_pay4 x = x := by unfold k0_pay4; exact shapeCast_self _ _
theorem pay5_eq (x : Vec Ideal S48x48 .f32) : k0_pay5 x = x := by unfold k0_pay5; exact shapeCast_self _ _

/-- The four arrays the region is launched on. -/
abbrev T (c : Dev nD) : S48x32768.Idx → EReal := V m c main_v12
abbrev M (c : Dev nD) : S48x1.Idx → EReal := V m c main_v13
abbrev WT (c : Dev nD) : S48x48.Idx → EReal := V m c main_v14
abbrev BT (c : Dev nD) : S48x48.Idx → EReal := V m c main_v15

/-- The printed index maps, decided over the grid: the times and the output move along the columns with the point,
    block row 0; the three parameter arrays stay at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- The block of times at point `t`: rows whole, column `j` of the block is column `2048·t + j` of the array. -/
theorem times_blk (c : Dev nD) (t : Fin cfg0.N) (p : Fin 48) (j : Fin 2048) (s : Fin 32768)
    (hs : s.val = t.val * 2048 + j.val) :
    (iblk m c 0 t : Vec Ideal S48x2048 .f32) (ix2 p j) = T m c (ix2 p s) := by
  obtain ⟨e0, e1, -⟩ := idx_facts t
  unfold iblk
  rw [View.read_apply]
  show V m c main_v12 _ = V m c main_v12 _
  congr 1
  funext a
  apply Fin.ext
  match a with
  | ⟨0, _⟩ => show win0_0.index t (0 : Fin 2) * 48 + 1 * p.val = p.val; rw [e0]; omega
  | ⟨1, _⟩ => show win0_0.index t (1 : Fin 2) * 2048 + 1 * j.val = s.val; rw [e1, hs]; omega

/-- The block of base rates at any point is the whole column. -/
theorem rates_blk (c : Dev nD) (t : Fin cfg0.N) (p : Fin 48) (v : Fin 1) :
    (iblk m c 1 t : Vec Ideal S48x1 .f32) (ix2 p v) = M m c (ix2 p v) := by
  obtain ⟨-, -, e0, e1, -⟩ := idx_facts t
  unfold iblk
  rw [View.read_apply]
  show V m c main_v13 _ = V m c main_v13 _
  congr 1
  funext a
  apply Fin.ext
  match a with
  | ⟨0, _⟩ => show win0_1.index t (0 : Fin 2) * 48 + 1 * p.val = p.val; rw [e0]; omega
  | ⟨1, _⟩ => show win0_1.index t (1 : Fin 2) * 1 + 1 * v.val = v.val; rw [e1]; omega

/-- The block of transposed weights at any point is the whole matrix. -/
theorem weights_blk (c : Dev nD) (t : Fin cfg0.N) (q p : Fin 48) :
    (iblk m c 2 t : Vec Ideal S48x48 .f32) (ix2 q p) = WT m c (ix2 q p) := by
  obtain ⟨-, -, -, -, e0, e1, -⟩ := idx_facts t
  unfold iblk
  rw [View.read_apply]
  show V m c main_v14 _ = V m c main_v14 _
  congr 1
  funext a
  apply Fin.ext
  match a with
  | ⟨0, _⟩ => show win0_2.index t (0 : Fin 2) * 48 + 1 * q.val = q.val; rw [e0]; omega
  | ⟨1, _⟩ => show win0_2.index t (1 : Fin 2) * 48 + 1 * p.val = p.val; rw [e1]; omega

/-- The block of transposed decay rates at any point is the whole matrix. -/
theorem decays_blk (c : Dev nD) (t : Fin cfg0.N) (q p : Fin 48) :
    (iblk m c 3 t : Vec Ideal S48x48 .f32) (ix2 q p) = BT m c (ix2 q p) := by
  obtain ⟨-, -, -, -, -, -, e0, e1, -⟩ := idx_facts t
  unfold iblk
  rw [View.read_apply]
  show V m c main_v15 _ = V m c main_v15 _
  congr 1
  funext a
  apply Fin.ext
  match a with
  | ⟨0, _⟩ => show win0_3.index t (0 : Fin 2) * 48 + 1 * q.val = q.val; rw [e0]; omega
  | ⟨1, _⟩ => show win0_3.index t (1 : Fin 2) * 48 + 1 * p.val = p.val; rw [e1]; omega

/-- What point `t` writes back is block `t` of the row `K` of the launched arrays. -/
theorem flushed_eq (c : Dev nD) (t : Fin cfg0.N) :
    (dats m 0 c).flushed 4 t = ((cfg0.win 4).blk t).view.read (Elt Ideal) (K (T m c) (M m c) (WT m c) (BT m c)) := by
  show (cfg0.win 4).cut (grid0.coords t) ((dats m 0 c).after 4 t) = _
  rw [after0_4, Body.out_eq, View.canon_unit_zero hz]
  simp only [View.ld_unit_zero (S := S48x2048) hz, View.ld_unit_zero (S := S48x1) hz, View.ld_unit_zero (S := S48x48) hz,
    pay2_eq, pay3_eq, pay4_eq, pay5_eq]
  obtain ⟨-, -, -, -, -, -, -, -, e0, e1⟩ := idx_facts t
  have hN : cfg0.N = 16 := N_0
  funext y
  obtain ⟨u, j, rfl⟩ : ∃ (u : Fin 1) (j : Fin 2048), y = ix2 u j := ⟨y 0, y 1, eq_ix2 y⟩
  have hs : t.val * 2048 + j.val < 32768 := by have := t.isLt; have := j.isLt; omega
  have hemb : ((cfg0.win 4).blk t).view.emb (ix2 u j) = ix2 (0 : Fin 1) (⟨t.val * 2048 + j.val, hs⟩ : Fin 32768) := by
    funext a
    apply Fin.ext
    match a with
    | ⟨0, _⟩ => show win0_4.index t (0 : Fin 2) * 1 + 1 * u.val = 0; rw [e0]; have := u.isLt; omega
    | ⟨1, _⟩ => show win0_4.index t (1 : Fin 2) * 2048 + 1 * j.val = t.val * 2048 + j.val; rw [e1]; omega
  show Body.accAfter (F := Ideal) (iblk m c 0 t : Vec Ideal S48x2048 .f32) (iblk m c 1 t : Vec Ideal S48x1 .f32)
      (iblk m c 2 t : Vec Ideal S48x48 .f32) (iblk m c 3 t : Vec Ideal S48x48 .f32) 48 (le_refl 48) (ix2 u j)
    = K (T m c) (M m c) (WT m c) (BT m c) (((cfg0.win 4).blk t).view.emb (ix2 u j))
  rw [hemb]
  refine (Body.accAll_apply (iblk m c 0 t : Vec Ideal S48x2048 .f32) (iblk m c 1 t : Vec Ideal S48x1 .f32)
    (iblk m c 2 t : Vec Ideal S48x48 .f32) (iblk m c 3 t : Vec Ideal S48x48 .f32) u j).trans ?_
  show _ = ∑ p : Fin 48, termK (T m c) (M m c) (WT m c) (BT m c) p (⟨t.val * 2048 + j.val, hs⟩ : Fin 32768)
  exact Finset.sum_congr rfl fun p _ => termK_congr _ _ _ _ _ _ _ _ p j _
    (fun q => times_blk m c t q j _ rfl) (rates_blk m c t p 0) (fun q => weights_blk m c t q p)
    (fun q => decays_blk m c t q p)

/-- An index of the output is in point `t`'s block iff each coordinate is in the block's range on its axis. -/
theorem mem_blk (t : Fin cfg0.N) (i : S1x32768.Idx) :
    i ∈ ((cfg0.win 4).blk t).view.set
      ↔ ∀ a : Fin 2, win0_4.index t a * S1x2048.size a ≤ (i a).val ∧ (i a).val < win0_4.index t a * S1x2048.size a + S1x2048.size a := by
  show i ∈ ((View.whole main_v16).slice (win0_4.rect t)).set ↔ _
  rw [View.set_slice_whole, Rect.mem_set_unit]
  exact Iff.rfl

/-- The output array after the run is the row `K` of the launched arrays. -/
theorem final (c : Dev nD) : (dats m 0 c).arrAt 4 cfg0.N = K (T m c) (M m c) (WT m c) (BT m c) :=
  (dats m 0 c).arrAt_eq_of_cover 4 (K (T m c) (M m c) (WT m c) (BT m c)) (fun t _ => flushed_eq m c t) fun i => by
    have hN : cfg0.N = 16 := N_0
    have h0 : (i 0).val < 1 := (i 0).isLt
    have h1 : (i 1).val < 32768 := (i 1).isLt
    have ht : (i 1).val / 2048 < cfg0.N := by rw [hN]; omega
    obtain ⟨-, -, -, -, -, -, -, -, e0, e1⟩ := idx_facts ⟨(i 1).val / 2048, ht⟩
    refine ⟨⟨(i 1).val / 2048, ht⟩, flush0_4 _, ?_⟩
    rw [mem_blk]
    intro a
    match a with
    | ⟨0, _⟩ =>
      show win0_4.index ⟨(i 1).val / 2048, ht⟩ (0 : Fin 2) * 1 ≤ (i 0).val
        ∧ (i 0).val < win0_4.index ⟨(i 1).val / 2048, ht⟩ (0 : Fin 2) * 1 + 1
      rw [e0]; omega
    | ⟨1, _⟩ =>
      show win0_4.index ⟨(i 1).val / 2048, ht⟩ (1 : Fin 2) * 2048 ≤ (i 1).val
        ∧ (i 1).val < win0_4.index ⟨(i 1).val / 2048, ht⟩ (1 : Fin 2) * 2048 + 2048
      rw [e1]
      show (i 1).val / 2048 * 2048 ≤ (i 1).val ∧ (i 1).val < (i 1).val / 2048 * 2048 + 2048
      omega

end Cert.KernelIdeal.KernelValue

end
-- ==== Proof.KernelHost.lean ====
/-
  The host lines around the region, and the kernel's run with its result named.
  Before the region the host flattens the arguments: the times [6, 8, 32768] to 48 rows, the base rates [6, 8] to a
  column of 48, the masked weights and the decay rates [6, 8, 6, 8] to 48 × 48 matrices which it then transposes. A
  reshape keeps the row-major position, so row `8a + b` of a flattened array is node (a, b) of the argument, and the
  transposed matrices hold at (row of (c, d), column of (a, b)) the entry (a, b, c, d). After the region the 1 × 32768
  output is reshaped to a vector. With the array after the run from the blocks, the kernel's result is the result
  function `G` of the arguments.
-/
import proofs.«138490_j17721035064124_1_alg».proof.Proof.KernelBlocks
import Idealize.ShloMosaic.Lib.StableHlo.Run
import Idealize.ShloMosaic.Lib.ValueLayout

set_option maxRecDepth 16384

noncomputable section

namespace Cert.KernelIdeal.KernelValue

open Idealize.ShloMosaic Idealize.ShloMosaic.TcCoe Idealize.ShloMosaic.ValueIdx Idealize.SL.Sem
open Idealize.ShloMosaic.StableHlo
open Cert.KernelIdeal Cert.KernelIdeal.Gen Cert.Hawkes

variable (m : (ℓ : Loc nD τ sig) → Buf (Elt Ideal) ℓ) (ρ : Dev nD → PrngReg)

/-- The four argument arrays as launched. -/
abbrev A0 (c : Dev nD) : S6x8x32768.Idx → EReal := m ((c : Thread nD τ).loc main_arg0)
abbrev A1 (c : Dev nD) : S6x8.Idx → EReal := m ((c : Thread nD τ).loc main_arg1)
abbrev A2 (c : Dev nD) : S6x8x6x8.Idx → EReal := m ((c : Thread nD τ).loc main_arg2)
abbrev A3 (c : Dev nD) : S6x8x6x8.Idx → EReal := m ((c : Thread nD τ).loc main_arg3)

/-- The weights times the layer mask, as the host computes it before the region: the mask is `1.0` where the exciting
    node's layer number is below the excited node's, else `0.0` (two `iota`s compared and converted). -/
def masked (x2 : S6x8x6x8.Idx → EReal) : S6x8x6x8.Idx → EReal :=
  mulf (F := Ideal) (φ := .f32) x2
    (uitofp .f32
      (broadcastInDim S6x8x6x8 ![0, 1, 2, 3] bcast_S6x1x6x1_S6x8x6x8_0_1_2_3
        (cmpi .slt
          (broadcastInDim S6x1x6x1 ![0, 1, 2, 3] bcast_S1x1x6x1_S6x1x6x1_0_1_2_3
            (broadcastInDim S1x1x6x1 ![2] bcast_S6_S1x1x6x1_2 (iotaInDim S6 32 0)))
          (broadcastInDim S6x1x6x1 ![0, 1, 2, 3] bcast_S6x1x1x1_S6x1x6x1_0_1_2_3
            (broadcastInDim S6x1x1x1 ![0] bcast_S6_S6x1x1x1_0 (iotaInDim S6 32 0))))))

/-! ## The launched arrays are the arguments, flattened -/

theorem T_eq (c : Dev nD) : T m c = shapeCast S48x32768 (A0 m c) shapeCasts_S6x8x32768_S48x32768 := by
  show StableHlo.after hostOps0 (fun b => m (c, b)) (Proc.devRef .tc main_v12) = _
  after_results
  rfl

theorem M_eq (c : Dev nD) : M m c = shapeCast S48x1 (A1 m c) shapeCasts_S6x8_S48x1 := by
  show StableHlo.after hostOps0 (fun b => m (c, b)) (Proc.devRef .tc main_v13) = _
  after_results
  rfl

theorem WT_eq (c : Dev nD) : WT m c
    = transpose S48x48 [1, 0] (shapeCast S48x48 (masked (A2 m c)) shapeCasts_S6x8x6x8_S48x48) transposes_S48x48_S48x48_1_0 := by
  show StableHlo.after hostOps0 (fun b => m (c, b)) (Proc.devRef .tc main_v14) = _
  after_results
  rfl

theorem BT_eq (c : Dev nD) : BT m c
    = transpose S48x48 [1, 0] (shapeCast S48x48 (A3 m c) shapeCasts_S6x8x6x8_S48x48) transposes_S48x48_S48x48_1_0 := by
  show StableHlo.after hostOps0 (fun b => m (c, b)) (Proc.devRef .tc main_v15) = _
  after_results
  rfl

/-- Row `8a + b` of the flattened times is node (a, b)'s times. -/
theorem T_read (c : Dev nD) (a : Fin 6) (b : Fin 8) (s : Fin 32768) :
    T m c (ix2 (node a b) s) = A0 m c (ix3 a b s) := by
  rw [T_eq]
  exact shapeCast_apply _ _ _ _ (by
    rw [Shape.rowMajor_val_three, Shape.rowMajor_val_two]
    show (a.val * 8 + b.val) * 32768 + s.val = (a.val * 8 + b.val) * 32768 + s.val
    rfl)

/-- Entry `8a + b` of the column of base rates is node (a, b)'s. -/
theorem M_read (c : Dev nD) (a : Fin 6) (b : Fin 8) :
    M m c (ix2 (node a b) (0 : Fin 1)) = A1 m c (ix2 a b) := by
  rw [M_eq]
  exact shapeCast_apply _ _ _ _ (by
    rw [Shape.rowMajor_val_two, Shape.rowMajor_val_two]
    show a.val * 8 + b.val = (a.val * 8 + b.val) * 1 + 0
    omega)

/-- A [6, 8, 6, 8] array flattened to 48 × 48 and transposed holds, at the row of (c, d) and the column of (a, b), its
    entry (a, b, c, d). -/
theorem flat_transposed_read (x : S6x8x6x8.Idx → EReal) (a : Fin 6) (b : Fin 8) (c' : Fin 6) (d : Fin 8) :
    transpose S48x48 [1, 0] (shapeCast S48x48 x shapeCasts_S6x8x6x8_S48x48) transposes_S48x48_S48x48_1_0
        (ix2 (node c' d) (node a b)) = x (ix4 a b c' d) := by
  rw [transpose_ix2_apply]
  exact shapeCast_apply _ _ _ _ (by
    rw [Shape.rowMajor_val_four, Shape.rowMajor_val_two]
    show ((a.val * 8 + b.val) * 6 + c'.val) * 8 + d.val = (a.val * 8 + b.val) * 48 + (c'.val * 8 + d.val)
    omega)

theorem WT_read (c : Dev nD) (a : Fin 6) (b : Fin 8) (c' : Fin 6) (d : Fin 8) :
    WT m c (ix2 (node c' d) (node a b)) = masked (A2 m c) (ix4 a b c' d) := by
  rw [WT_eq]; exact flat_transposed_read _ a b c' d

theorem BT_read (c : Dev nD) (a : Fin 6) (b : Fin 8) (c' : Fin 6) (d : Fin 8) :
    BT m c (ix2 (node c' d) (node a b)) = A3 m c (ix4 a b c' d) := by
  rw [BT_eq]; exact flat_transposed_read _ a b c' d

/-! ## After the region -/

/-- The program's result is the output row seen as a vector. -/
theorem tail_eq (c : Dev nD) :
    (Pipeline.afterTail₀ cfgs (dats m) 0 (V0 m) [hostOps1] c main_v17 : S32768.Idx → EReal)
      = shapeCast S32768 (K (T m c) (M m c) (WT m c) (BT m c)) shapeCasts_S1x32768_S32768 := by
  have e : (Pipeline.withArrays (cfgs 0).spec c (V0 m c) (fun w => (dats m 0 c).arrAt w (cfgs 0).N)
      (Proc.devRef .tc main_v16) : S1x32768.Idx → EReal) = K (T m c) (M m c) (WT m c) (BT m c) :=
    (Pipeline.withArrays_arr spec0 launch0.win.arr_inj c (V0 m c) (fun w => (dats m 0 c).arrAt w (cfgs 0).N) 4).trans
      (final m c)
  unfold Pipeline.afterTail₀
  show StableHlo.after hostOps1 _ (Proc.devRef .tc main_v17) = _
  after_results
  show shapeCast S32768 (Pipeline.withArrays (cfgs 0).spec c (V0 m c) (fun w => (dats m 0 c).arrAt w (cfgs 0).N)
      (Proc.devRef .tc main_v16) : S1x32768.Idx → EReal) shapeCasts_S1x32768_S32768 = _
  rw [e]

/-- The program's result is the result function of the arguments. -/
theorem result_eq (c : Dev nD) :
    (Pipeline.afterTail₀ cfgs (dats m) 0 (V0 m) [hostOps1] c main_v17 : S32768.Idx → EReal)
      = G (A0 m c) (A1 m c) (masked (A2 m c)) (A3 m c) := by
  rw [tail_eq]
  funext i
  obtain ⟨s, rfl⟩ : ∃ s : Fin 32768, i = ix1 s := ⟨i 0, eq_ix1 i⟩
  rw [shapeCast_1a_a_apply]
  exact K_eq_G (A0 m c) (A1 m c) (masked (A2 m c)) (A3 m c) (T m c) (M m c) (WT m c) (BT m c)
    (T_read m c) (M_read m c) (WT_read m c) (BT_read m c) 0 s

/-! ## The run -/

/-- Every weakly fair execution of the idealized kernel terminates with its result at `G` of the arguments, the
    arguments unchanged. -/
theorem run : θ_run defs (onTc (τ := τ) (main (F := Ideal))) ⟨m, fun _ => 0, ρ⟩ fun r => ∀ c : Dev nD,
      r.2.mem ((c : Thread nD τ).loc main_v17) = G (A0 m c) (A1 m c) (masked (A2 m c)) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KernelValue

end
-- ==== Proof.LibReduceTwoAxes.lean ====
/-
  The host's float sum over TWO axes at once, read at an index at the ideal values, as the initial value plus a
  double sum over the two summed coordinates: a rank-5 array summed over its axes 2 and 3 (what `jnp.sum(x, axis=(2, 3))`
  of a five-axis array lowers to), and a rank-3 array summed over its axes 0 and 1. The library reads a sum over one
  axis, or over every axis; here the indices that reduce to a given result index are exactly those with the kept
  coordinates fixed and the two summed coordinates free, so the sum over them is the double sum.
-/
import Idealize.ShloMosaic.PureOps.Ideal.Laws
import Idealize.ShloMosaic.Lib.ValueIdx
import Idealize.ShloMosaic.Lib.IdealHost

namespace Idealize.ShloMosaic.ValueIdx

open Idealize.ShloMosaic

/-- A rank-5 array summed by the host over its axes 2 and 3, at the index `(a, b, e)`: the initial value plus the sum over
    `c` and `d` of the array at `(a, b, c, d, e)`. -/
theorem hostReduceAdd_axes23_apply {n0 n1 n2 n3 n4 : ℕ}
    (h : (⟨5, ![n0, n1, n2, n3, n4]⟩ : Shape).ReducesTo [2, 3] ⟨3, ![n0, n1, n4]⟩)
    (x : (⟨5, ![n0, n1, n2, n3, n4]⟩ : Shape).Idx → EReal) (init : EReal) (a : Fin n0) (b : Fin n1) (e : Fin n4) :
    Ideal.hostReduceAdd h x init (ix3 a b e) = init + ∑ c : Fin n2, ∑ d : Fin n3, x (ix5 a b c d e) := by
  unfold Ideal.hostReduceAdd
  refine congrArg (init + ·) ?_
  rw [← Fintype.sum_prod_type' (f := fun (c : Fin n2) (d : Fin n3) => x (ix5 a b c d e))]
  have key : ∀ i : (⟨5, ![n0, n1, n2, n3, n4]⟩ : Shape).Idx, h.drop i = ix3 a b e →
      ix5 a b (i 2 : Fin n2) (i 3 : Fin n3) e = i := by
    intro i hi
    funext k
    apply Fin.ext
    match k with
    | ⟨0, _⟩ => exact (congrArg Fin.val (congrFun hi (0 : Fin 3))).symm
    | ⟨1, _⟩ => exact (congrArg Fin.val (congrFun hi (1 : Fin 3))).symm
    | ⟨2, _⟩ => rfl
    | ⟨3, _⟩ => rfl
    | ⟨4, _⟩ => exact (congrArg Fin.val (congrFun hi (2 : Fin 3))).symm
  refine Finset.sum_bij' (fun i _ => ((i 2 : Fin n2), (i 3 : Fin n3))) (fun p _ => ix5 a b p.1 p.2 e)
    (fun _ _ => Finset.mem_univ _) ?_ ?_ (fun _ _ => rfl) ?_
  · intro p _
    refine Finset.mem_filter.2 ⟨Finset.mem_univ _, ?_⟩
    funext k
    apply Fin.ext
    match k with
    | ⟨0, _⟩ => rfl
    | ⟨1, _⟩ => rfl
    | ⟨2, _⟩ => rfl
  · intro i hi
    exact key i (Finset.mem_filter.1 hi).2
  · intro i hi
    exact congrArg x (key i (Finset.mem_filter.1 hi).2).symm

/-- A rank-3 array summed by the host over its axes 0 and 1, at the index `e`: the initial value plus the sum over `a` and
    `b` of the array at `(a, b, e)`. -/
theorem hostReduceAdd_axes01_apply {n0 n1 n2 : ℕ}
    (h : (⟨3, ![n0, n1, n2]⟩ : Shape).ReducesTo [0, 1] ⟨1, ![n2]⟩)
    (x : (⟨3, ![n0, n1, n2]⟩ : Shape).Idx → EReal) (init : EReal) (e : Fin n2) :
    Ideal.hostReduceAdd h x init (ix1 e) = init + ∑ a : Fin n0, ∑ b : Fin n1, x (ix3 a b e) := by
  unfold Ideal.hostReduceAdd
  refine congrArg (init + ·) ?_
  rw [← Fintype.sum_prod_type' (f := fun (a : Fin n0) (b : Fin n1) => x (ix3 a b e))]
  have key : ∀ i : (⟨3, ![n0, n1, n2]⟩ : Shape).Idx, h.drop i = ix1 e →
      ix3 (i 0 : Fin n0) (i 1 : Fin n1) e = i := by
    intro i hi
    funext k
    apply Fin.ext
    match k with
    | ⟨0, _⟩ => rfl
    | ⟨1, _⟩ => rfl
    | ⟨2, _⟩ => exact (congrArg Fin.val (congrFun hi (0 : Fin 1))).symm
  refine Finset.sum_bij' (fun i _ => ((i 0 : Fin n0), (i 1 : Fin n1))) (fun p _ => ix3 p.1 p.2 e)
    (fun _ _ => Finset.mem_univ _) ?_ ?_ (fun _ _ => rfl) ?_
  · intro p _
    refine Finset.mem_filter.2 ⟨Finset.mem_univ _, ?_⟩
    funext k
    apply Fin.ext
    match k with
    | ⟨0, _⟩ => rfl
  · intro i hi
    exact key i (Finset.mem_filter.1 hi).2
  · intro i hi
    exact congrArg x (key i (Finset.mem_filter.1 hi).2).symm

end Idealize.ShloMosaic.ValueIdx
-- ==== Proof.RefIsG.lean ====
/-
  The reference's result is the result function `G` of the argument arrays, with the masked weights
  (the weights times the layer mask, the reference's own product) in the place of `w`.
  Read from the outside in: the last sum, over the layer and group axes of a [6, 8, 32768] array, is at event `s` the
  initial value `0` plus the double sum over (a, b); its summand is `log1p (lam − 1) · t − lam` with `lam` the
  intensity stage; the intensity stage at (a, b, s) is the base rate plus the sum, over the axes 2 and 3 of a
  [6, 8, 6, 8, 32768] array, of the weight times the exponential of minus the decay rate times the time difference —
  every broadcast reading its operand at the coordinates it keeps.
-/
import proofs.«138490_j17721035064124_1_alg».proof.Proof.Gen.ReferenceIdeal.Read
import proofs.«138490_j17721035064124_1_alg».proof.Proof.HawkesSpec
import proofs.«138490_j17721035064124_1_alg».proof.Proof.LibReduceTwoAxes
import Idealize.ShloMosaic.Lib.IdealHost

set_option maxRecDepth 16384

noncomputable section

namespace Cert.ReferenceIdeal.RefValue

open Idealize.ShloMosaic Idealize.ShloMosaic.ValueIdx Cert.ReferenceIdeal Cert.ReferenceIdeal.Gen
  Cert.ReferenceIdeal.Read Cert.Hawkes

/-- One summand of the intensity: at (a, b, c, d, s), the masked weight of (c, d) on (a, b) times the exponential of
    minus the decay rate times the difference of the two event times. -/
theorem summand_read (x0 : FVec Ideal S6x8x32768 .f32) (x2 x3 : FVec Ideal S6x8x6x8 .f32)
    (a : Fin 6) (b : Fin 8) (c : Fin 6) (d : Fin 8) (s : Fin 32768) :
    val_main_v23 (F := Ideal) x0 x2 x3 (ix5 a b c d s)
      = val_main_v20 (F := Ideal) x2 (ix4 a b c d)
          * Ideal.exp (-(x3 (ix4 a b c d)) * (x0 (ix3 a b s) - x0 (ix3 c d s))) := by
  have i22 : idx_main_v21 (idx_main_v22 (ix5 a b c d s)) = ix4 a b c d :=
    funext fun k => Fin.ext (by match k with | ⟨0, _⟩ => rfl | ⟨1, _⟩ => rfl | ⟨2, _⟩ => rfl | ⟨3, _⟩ => rfl)
  have i16 : idx_main_v14 (idx_main_v16 (ix5 a b c d s)) = ix4 a b c d :=
    funext fun k => Fin.ext (by match k with | ⟨0, _⟩ => rfl | ⟨1, _⟩ => rfl | ⟨2, _⟩ => rfl | ⟨3, _⟩ => rfl)
  have i11 : idx_main_v9 (idx_main_v11 (ix5 a b c d s)) = ix3 a b s :=
    funext fun k => Fin.ext (by match k with | ⟨0, _⟩ => rfl | ⟨1, _⟩ => rfl | ⟨2, _⟩ => rfl)
  have i12 : idx_main_v10 (idx_main_v12 (ix5 a b c d s)) = ix3 c d s :=
    funext fun k => Fin.ext (by match k with | ⟨0, _⟩ => rfl | ⟨1, _⟩ => rfl | ⟨2, _⟩ => rfl)
  rw [val_main_v23_apply, val_main_v22_apply, val_main_v21_apply, val_main_v18_apply, val_main_v17_apply,
    val_main_v16_apply, val_main_v15_apply, val_main_v14_apply, val_main_v13_apply, val_main_v11_apply,
    val_main_v9_apply, val_main_v12_apply, val_main_v10_apply, i22, i16, i11, i12]
  rfl

/-- The intensity stage at (a, b, s). -/
theorem lam_read (x0 : FVec Ideal S6x8x32768 .f32) (x1 : FVec Ideal S6x8 .f32) (x2 x3 : FVec Ideal S6x8x6x8 .f32)
    (a : Fin 6) (b : Fin 8) (s : Fin 32768) :
    val_main_v26 (F := Ideal) x0 x1 x2 x3 (ix3 a b s) = lam x0 x1 (val_main_v20 (F := Ideal) x2) x3 a b s := by
  have i25 : idx_main_v19 (idx_main_v25 (ix3 a b s)) = ix2 a b :=
    funext fun k => Fin.ext (by match k with | ⟨0, _⟩ => rfl | ⟨1, _⟩ => rfl)
  have e24 : val_main_v24 (F := Ideal) x0 x2 x3 (ix3 a b s)
      = 0 + ∑ c : Fin 6, ∑ d : Fin 8, val_main_v23 (F := Ideal) x0 x2 x3 (ix5 a b c d s) := by
    unfold val_main_v24
    show Ideal.hostReduceAdd _ (val_main_v23 (F := Ideal) x0 x2 x3) _ (ix3 a b s) = _
    rw [hostReduceAdd_axes23_apply]
    show Ideal.ofBits .f32 0x00000000#32 + _ = _
    rw [Ideal.ofBits_zero_f32]
  rw [val_main_v26_apply, val_main_v25_apply, val_main_v19_apply, i25, e24]
  unfold lam
  show x1 (ix2 a b) + _ = _
  refine congrArg (fun z => x1 (ix2 a b) + (0 + z))
    (Finset.sum_congr rfl fun c _ => Finset.sum_congr rfl fun d _ => summand_read x0 x2 x3 a b c d s)

/-- The reference's result is `G` of the times, the base rates, the masked weights and the decay rates. -/
theorem result_eq (x0 : FVec Ideal S6x8x32768 .f32) (x1 : FVec Ideal S6x8 .f32) (x2 x3 : FVec Ideal S6x8x6x8 .f32) :
    val_main_v32 (F := Ideal) x0 x1 x2 x3 = G x0 x1 (val_main_v20 (F := Ideal) x2) x3 := by
  funext i
  obtain ⟨s, rfl⟩ : ∃ s : Fin 32768, i = ix1 s := ⟨i 0, eq_ix1 i⟩
  unfold val_main_v32 G
  show Ideal.hostReduceAdd _ (val_main_v31 (F := Ideal) x0 x1 x2 x3) _ (ix1 s) = _
  rw [hostReduceAdd_axes01_apply]
  show Ideal.ofBits .f32 0x00000000#32 + _ = _
  rw [Ideal.ofBits_zero_f32]
  refine congrArg (fun z => (0 : EReal) + z) (Finset.sum_congr rfl fun a _ => Finset.sum_congr rfl fun b _ => ?_)
  rw [val_main_v31_apply, val_main_v30_apply, val_main_v29_apply, val_main_v28_apply, val_main_v27_apply,
    val_main_cst_0_apply, lam_read]
  rfl

end Cert.ReferenceIdeal.RefValue

end
-- ==== Proof.lean ====
/-
  The proof of `Cert.Claim`: a kernel that computes, for 32768 events and 48 nodes (6 layers of 8 groups), the sum over
  the nodes of `log1p (lam − 1) · t − lam`, `lam` being the node's base rate plus the masked-weighted sum of
  exponential decays of time differences, against the same quantity written with whole-array operations.

  The three frames: both printed kernels' runs terminate without fault and leave the arguments unchanged (the generated
  frame of each program); the reference has no kernel, and its frame is its run with the result dropped.
  `preserves` has no conjunct: the idealization rewrote nothing.
  `algebraic`: at the ideal values the kernel's result is the result function `G` of the arguments (the body is one loop
  over the nodes written out 48 times, read as a running total; the 16 blocks of 2048 events tile the output; the host
  lines around the region only flatten and transpose), and so is the reference's (its two sums over two axes each read
  as double sums). The two arrangements — a running total over the node number against a double sum over layer and
  group, `0 − x` against `−x`, `(acc + x) − y` against `acc + (x − y)` — agree on all of the extended reals, so the
  precondition is never opened. Both programs compute the layer mask by the same host operations, so the masked
  weights are one term.
-/
import proofs.«138490_j17721035064124_1_alg».proof.Defs
import proofs.«138490_j17721035064124_1_alg».proof.Proof.Gen.Kernel
import proofs.«138490_j17721035064124_1_alg».proof.Proof.Gen.Kernel.Skeleton
import proofs.«138490_j17721035064124_1_alg».proof.Proof.Gen.Kernel.Launch
import proofs.«138490_j17721035064124_1_alg».proof.Proof.Gen.Kernel.Points
import proofs.«138490_j17721035064124_1_alg».proof.Proof.Gen.Kernel.Frame
import proofs.«138490_j17721035064124_1_alg».proof.Proof.Gen.KernelIdeal
import proofs.«138490_j17721035064124_1_alg».proof.Proof.Gen.KernelIdeal.Skeleton
import proofs.«138490_j17721035064124_1_alg».proof.Proof.Gen.KernelIdeal.Launch
import proofs.«138490_j17721035064124_1_alg».proof.Proof.Gen.KernelIdeal.Points
import proofs.«138490_j17721035064124_1_alg».proof.Proof.Gen.KernelIdeal.Frame
import proofs.«138490_j17721035064124_1_alg».proof.Proof.Gen.ReferenceIdeal
import proofs.«138490_j17721035064124_1_alg».proof.Proof.Gen.ReferenceIdeal.Run
import proofs.«138490_j17721035064124_1_alg».proof.Proof.Gen.ReferenceIdeal.Read
import proofs.«138490_j17721035064124_1_alg».proof.Proof.Gen.Pre_finite_inputs
import proofs.«138490_j17721035064124_1_alg».proof.Proof.KernelHost
import proofs.«138490_j17721035064124_1_alg».proof.Proof.RefIsG
import Idealize.ShloMosaic.Adequacy
import Idealize.ShloMosaic.Init

set_option maxRecDepth 16384

noncomputable section

namespace Cert.Proof

open Idealize.ShloMosaic Idealize.ShloMosaic.TcCoe Idealize.SL.Sem

/-- The two programs compute the masked weights by the same operations. -/
theorem masked_eq (x2 : Cert.ReferenceIdeal.S6x8x6x8.Idx → EReal) :
    Cert.ReferenceIdeal.Read.val_main_v20 (F := Ideal) x2 = Cert.KernelIdeal.KernelValue.masked x2 := rfl

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `G` of the (agreeing) arguments. -/
theorem algebraic : Cert.algebraic_KernelIdeal_ReferenceIdeal := by
  intro m ρ m' ρ' _ hagree
  refine ⟨fun c => Cert.Hawkes.G (Cert.KernelIdeal.KernelValue.A0 m c) (Cert.KernelIdeal.KernelValue.A1 m c)
      (Cert.KernelIdeal.KernelValue.masked (Cert.KernelIdeal.KernelValue.A2 m c)) (Cert.KernelIdeal.KernelValue.A3 m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq, masked_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
